-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x4096x1024 .f32) (main_arg1 : FVec F S1024x1024 .f32) (main_arg2 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S32768x1024 : Shape := ⟨2, ![32768, 1024]⟩

abbrev nBuf : Space → Nat
  | .hbm => 33
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .i1⟩
  | .hbm, ⟨13, _⟩ => ⟨S1024x1024, .f32⟩
  | .hbm, ⟨14, _⟩ => ⟨S_, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024, .f32⟩
  | .hbm, ⟨21, _⟩ => ⟨S1024x1, .f32⟩
  | .hbm, ⟨22, _⟩ => ⟨S_, .f32⟩
  | .hbm, ⟨23, _⟩ => ⟨S1024x1, .f32⟩
  | .hbm, ⟨24, _⟩ => ⟨S1024x1, .f32⟩
  | .hbm, ⟨25, _⟩ => ⟨S1024x1024, .f32⟩
  | .hbm, ⟨26, _⟩ => ⟨S1024x1024, .f32⟩
  | .hbm, ⟨27, _⟩ => ⟨S1024x1024, .bf16⟩
  | .hbm, ⟨28, _⟩ => ⟨S1024x1024, .bf16⟩
  | .hbm, ⟨29, _⟩ => ⟨S1x1024, .f32⟩
  | .hbm, ⟨30, _⟩ => ⟨S32768x1024, .f32⟩
  | .hbm, ⟨31, _⟩ => ⟨S32768x1024, .f32⟩
  | .hbm, ⟨32, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1024x1024_S_d0_1 : S1024x1024.ReducesTo [0, 1] S_
  h_S_ : 0 < S_.numel
  bcast_S_S1024x1024 : S_.BroadcastsInDim S1024x1024 (![] : Fin 0 → Fin S1024x1024.rank)
  reducesTo_S1024x1024_S1024_d1 : S1024x1024.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  bitsLt_bf16_f32 : FTy.bits .bf16 < FTy.bits .f32
  transposes_S1024x1024_S1024x1024_1_0 : S1024x1024.Transposes [1, 0] S1024x1024
  shapeCasts_S1024_S1x1024 : S1024.ShapeCasts S1x1024
  shapeCasts_S8x4096x1024_S32768x1024 : S8x4096x1024.ShapeCasts S32768x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S32768x1024_S8x4096x1024 : S32768x1024.ShapeCasts S8x4096x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v19) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1024x1 : Shape := ⟨2, ![1024, 1]⟩
abbrev S1x1x1024 : Shape := ⟨3, ![1, 1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S1024x1024, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S1024x1024, .i1⟩
  | .hbm, ⟨41, _⟩ => ⟨S1024x1024, .f32⟩
  | .hbm, ⟨42, _⟩ => ⟨S_, .f32⟩
  | .hbm, ⟨43, _⟩ => ⟨S_, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S_, .f32⟩
  | .hbm, ⟨48, _⟩ => ⟨S1024, .f32⟩
  | .hbm, ⟨49, _⟩ => ⟨S1024x1, .f32⟩
  | .hbm, ⟨50, _⟩ => ⟨S_, .f32⟩
  | .hbm, ⟨51, _⟩ => ⟨S1024x1, .f32⟩
  | .hbm, ⟨52, _⟩ => ⟨S1024x1, .f32⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S1024x1024, .f32⟩
  | .hbm, ⟨57, _⟩ => ⟨S8x4096x1024, .f32⟩
  | .hbm, ⟨58, _⟩ => ⟨S1x1x1024, .f32⟩
  | .hbm, ⟨59, _⟩ => ⟨S8x4096x1024, .f32⟩
  | .hbm, ⟨60, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_call2_v0 : Ref sig .tc := ⟨.hbm, 43, rfl⟩
abbrev main_call2_v1 : Ref sig .tc := ⟨.hbm, 44, rfl⟩
abbrev main_v25 : Ref sig .tc := ⟨.hbm, 45, rfl⟩
abbrev main_v26 : Ref sig .tc := ⟨.hbm, 46, rfl⟩
abbrev main_cst_9 : Ref sig .tc := ⟨.hbm, 47, rfl⟩
abbrev main_v27 : Ref sig .tc := ⟨.hbm, 48, rfl⟩
abbrev main_v28 : Ref sig .tc := ⟨.hbm, 49, rfl⟩
abbrev main_cst_10 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]

class Facts₀ : Prop where
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S_S8x4096x1024 : S_.BroadcastsInDim S8x4096x1024 (![] : Fin 0 → Fin S8x4096x1024.rank)
  reducesTo_S1024x1024_S_d0_1 : S1024x1024.ReducesTo [0, 1] S_
  bcast_S_S1024x1024 : S_.BroadcastsInDim S1024x1024 (![] : Fin 0 → Fin S1024x1024.rank)
  reducesTo_S1024x1024_S1024_d1 : S1024x1024.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S1024x1024_S8x4096x1024_2_1_01_0_n_n_wf : DotDims.WF S8x4096x1024 S1024x1024 S8x4096x1024 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.Spec.lean ====
/-
  The result both programs compute, stated once over the extended reals.

  A row `x[r, ·]` of 1024 activations is quantized to 4 bits against its own scale
  `M = max (max_k |x[r, k]|) ε`: each entry becomes `clip (round (x / M · 7)) · M / 7`, the rounding to
  nearest with ties to even and the clip to `[-8, 7]`. The output entry `(r, o)` is the inner product of the
  quantized row with row `o` of the ternary weight matrix, plus `bias[o]`. Nothing here depends on how the rows are
  laid out (as `[8, 4096]` or flattened to `[32768]`) or in which order the 1024 products are added.
-/
import Idealize.ShloMosaic.PureOps.Ideal
import Idealize.ShloMosaic.PureOps.Ideal.Laws
import Idealize.ShloMosaic.Lib.ValueIdx

noncomputable section

namespace Cert.BitLinear

open Idealize.ShloMosaic Idealize.ShloMosaic.ValueIdx

/-- The four float literals of the quantizer, as the words both programs print: `-∞` (the maximum's start),
    `ε = f32 1e-6`, `7` and `-8`. Each word stands the same on both sides, so the proof never needs its value. -/
abbrev negInf : EReal := Ideal.ofBits .f32 0xFF800000#32
abbrev eps : EReal := Ideal.ofBits .f32 0x358637BD#32
abbrev seven : EReal := Ideal.ofBits .f32 0x40E00000#32
abbrev negEight : EReal := Ideal.ofBits .f32 0xC1000000#32

/-- A row's scale: its largest magnitude (`|v| = max v (-v)`), but at least `ε`. -/
def rowScale (f : Fin 1024 → EReal) : EReal :=
  max ((Finset.univ : Finset (Fin 1024)).fold max negInf fun k => max (f k) (-(f k))) eps

/-- One entry `v` of a row with scale `M`, quantized and brought back: `clip (round (v / M · 7)) · M / 7`. -/
def quant (M v : EReal) : EReal :=
  Ideal.div (min seven (max negEight (Ideal.liftRound Ideal.roundHalfEven (Ideal.div v M * seven))) * M) seven

/-- One output entry from a row of activations, a row of ternary weights and a bias entry. -/
def rowOut (xr wr : Fin 1024 → EReal) (b : EReal) : EReal :=
  (∑ k : Fin 1024, quant (rowScale xr) (xr k) * wr k) + b

/-- The whole result, over `[8, 4096, 1024]`: entry `(b, s, o)` from row `(b, s)` of `x`, row `o` of the ternary
    weights `T` and `bias[o]`. -/
def G (x : (⟨3, ![8, 4096, 1024]⟩ : Shape).Idx → EReal) (T : (⟨2, ![1024, 1024]⟩ : Shape).Idx → EReal)
    (bias : (⟨1, ![1024]⟩ : Shape).Idx → EReal) : (⟨3, ![8, 4096, 1024]⟩ : Shape).Idx → EReal :=
  fun i => rowOut (fun k => x (ix3 (i 0) (i 1) k)) (fun k => T (ix2 (i 2) k)) (bias (ix1 (i 2)))

theorem G_apply (x : (⟨3, ![8, 4096, 1024]⟩ : Shape).Idx → EReal) (T : (⟨2, ![1024, 1024]⟩ : Shape).Idx → EReal)
    (bias : (⟨1, ![1024]⟩ : Shape).Idx → EReal) (b : Fin 8) (s : Fin 4096) (o : Fin 1024) :
    G x T bias (ix3 b s o) = rowOut (fun k => x (ix3 b s k)) (fun k => T (ix2 o k)) (bias (ix1 o)) := rfl

/-- The straight-through estimator's forward value: `a + (d - a)` is `d` whenever `a` is a real number, whatever
    extended real `d` is (at `d = ±∞` both sides are that infinity). -/
theorem add_sub_cancel_of_real (a : ℝ) (d : EReal) : (a : EReal) + (d - (a : EReal)) = d := by
  induction d using EReal.rec with
  | bot => simp
  | top => simp
  | coe r => rw [← EReal.coe_sub, ← EReal.coe_add]; congr 1; ring

end Cert.BitLinear

end
-- ==== Proof.Layout.lean ====
/-
  Three layout operations read at an index by coordinates: a vector of row values stood up as a column
  `[a] → [a, 1]`, that column spread across the lanes `[a, 1] → [a, b]`, and the index a one-axis reduction of a
  matrix's rows inserts.
-/
import Idealize.ShloMosaic.Lib.Pipeline.Value
import Idealize.ShloMosaic.Lib.ValueIdx
import Idealize.ShloMosaic.Lib.ValueLayout
import Idealize.ShloMosaic.PureOps.Reduce

noncomputable section

namespace Cert.BitLinear

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

/-- Reducing the rows of an `[a, b]` matrix along axis 1: the source index over row `i` with lane `k` inserted is
    `(i, k)`. -/
theorem lift_rows {a b : ℕ} (h : (⟨2, ![a, b]⟩ : Shape).Reduces [1] ⟨1, ![a]⟩) (i : Fin a) (k : Fin b) :
    h.lift (ix1 i) k = ix2 i k :=
  funext fun c => Fin.ext (by match c with | ⟨0, _⟩ => rfl | ⟨1, _⟩ => rfl)

end Cert.BitLinear

end
-- ==== Proof.Payload.lean ====
/-
  The kernel body's one store, read at an entry `(r, o)` of its `[1024, 1024]` output block: the row `r` of the
  activation block is scaled by its own largest magnitude, rounded, clipped and brought back (`quant`), multiplied
  into column `o` of the transposed weight block over the 1024 lanes, and the bias row's entry `o` is added —
  `rowOut` of that row, that column and that bias entry.
-/
import proofs.«105871_j38190849196566_1_alg».proof.Proof.Gen.KernelIdeal.Skeleton
import proofs.«105871_j38190849196566_1_alg».proof.Proof.Spec
import proofs.«105871_j38190849196566_1_alg».proof.Proof.Layout
import Idealize.ShloMosaic.PureOps.Ideal.Laws
import Idealize.ShloMosaic.Lib.Pipeline.Value
import Idealize.ShloMosaic.Lib.ValueIdx
import Idealize.ShloMosaic.Lib.ValueLayout

noncomputable section

namespace Cert.BitLinear

open Cert.KernelIdeal Cert.KernelIdeal.Gen Idealize.ShloMosaic Idealize.ShloMosaic.ValueIdx

/-- A scalar literal of the body denotes the value of its word. -/
theorem scalar_ofBits (φ : FTy) (b : BitVec φ.bits) : Scalar.ofBits (F := Ideal) φ b = Ideal.ofBits φ b := rfl

/-- Row `r`'s largest magnitude: the lane reduction by `max` from `-∞` is the fold of `max` over the row's 1024 lanes,
    and `|v| = max v (-v)`. -/
theorem row_max (x : FVec Ideal S1024x1024 .f32) (hacc : (0xFF800000#32 : BitVec 32) = 0xFF800000#32) (r : Fin 1024) :
    multiReduction .maximumf [1] S1024 (absf x) 0xFF800000#32 Facts₀.reduces_S1024x1024_S1024 (.inl rfl) hacc (ix1 r)
      = (Finset.univ : Finset (Fin 1024)).fold max negInf fun k => max (x (ix2 r k)) (-(x (ix2 r k))) := by
  refine (Ideal.multiReduction_maximumf_single (absf x) 0xFF800000#32 Facts₀.reduces_S1024x1024_S1024 (.inl rfl) hacc (ix1 r)).trans ?_
  rw [Ideal.ofBits_def]
  refine congrArg (Finset.fold max negInf · Finset.univ) (funext fun k => ?_)
  show FloatOps.absf (x (Facts₀.reduces_S1024x1024_S1024.lift (ix1 r) k)) = _
  exact (congrArg (fun i => FloatOps.absf (x i)) (lift_rows Facts₀.reduces_S1024x1024_S1024 r k)).trans (Ideal.absf_def _)

/-- The scale column of a block: row `r`'s entry is that row's `rowScale` — the row maximum stood up as a column and
    joined with `ε`. -/
theorem scale_col (x : FVec Ideal S1024x1024 .f32) (r : Fin 1024) :
    maximumf (shapeCast S1024x1 (multiReduction .maximumf [1] S1024 (absf x) 0xFF800000#32
        Facts₀.reduces_S1024x1024_S1024 (.inl rfl) rfl) Facts₀.shapeCasts_S1024_S1024x1)
      (broadcast S1024x1 (Scalar.ofBits (F := Ideal) .f32 0x358637BD#32)) (ix2 r (0 : Fin 1))
      = rowScale fun k => x (ix2 r k) := by
  rw [maximumf_apply, broadcast_apply, shapeCast_a_a1_apply, row_max, scalar_ofBits]
  rfl

theorem roundeven_apply {s : Shape} {φ : FTy} (a : FVec Ideal s φ) (i : s.Idx) :
    roundeven a i = Ideal.liftRound Ideal.roundHalfEven (a i) := rfl

/-- The dequantized block at `(r, k)`: the entry quantized against its row's scale, read off the scale column. -/
theorem deq_apply (x : FVec Ideal S1024x1024 .f32) (col : FVec Ideal S1024x1 .f32) (r k : Fin 1024) :
    divf (mulf (minimumf (broadcast S1024x1024 (Scalar.ofBits (F := Ideal) .f32 0x40E00000#32))
            (maximumf (broadcast S1024x1024 (Scalar.ofBits (F := Ideal) .f32 0xC1000000#32))
              (roundeven (mulf (divf x (broadcastTo S1024x1024 col Facts₀.broadcasts_S1024x1_S1024x1024))
                (broadcast S1024x1024 (Scalar.ofBits (F := Ideal) .f32 0x40E00000#32))))))
          (broadcastTo S1024x1024 col Facts₀.broadcasts_S1024x1_S1024x1024))
        (broadcast S1024x1024 (Scalar.ofBits (F := Ideal) .f32 0x40E00000#32)) (ix2 r k)
      = quant (col (ix2 r (0 : Fin 1))) (x (ix2 r k)) := by
  rw [divf_apply, mulf_apply, minimumf_apply, maximumf_apply, roundeven_apply, mulf_apply, divf_apply,
    broadcastTo_a1_ab_apply (by decide)]
  simp only [broadcast_apply, Ideal.ofBits_def]
  rfl

/-- The body's matrix product's dimension record: lanes of the left block against rows of the right. -/
abbrev D := dot_S1024x1024_S1024x1024_S1024x1024_1_0_0_1_n_n

theorem D_lhs0 (i : S1024x1024.Idx) (q : D.contr.Idx) : (D.lhsIdx i q 0).val = (i 0).val := by
  unfold DotDims.lhsIdx
  rw [dif_neg (show ¬(0 : Fin S1024x1024.rank) ∈ D.lhsBatch by decide), dif_pos (show (0 : Fin S1024x1024.rank) ∈ D.lhsNonContracting by decide)]
  rfl
theorem D_rhs1 (i : S1024x1024.Idx) (q : D.contr.Idx) : (D.rhsIdx i q 1).val = (i 1).val := by
  unfold DotDims.rhsIdx
  rw [dif_neg (show ¬(1 : Fin S1024x1024.rank) ∈ D.rhsBatch by decide), dif_pos (show (1 : Fin S1024x1024.rank) ∈ D.rhsNonContracting by decide)]
  rfl

/-- The product into a zero accumulator at `(r, o)`: the sum over the 1024 lanes of row `r` of the left block times
    column `o` of the right one. -/
theorem matmul_rc (a b : FVec Ideal S1024x1024 .bf16) (r o : Fin 1024) :
    matmul D none a b (constant (F := Ideal) S1024x1024 .f32 0x00000000#32) (ix2 r o)
      = ∑ k : Fin 1024, a (ix2 r k) * b (ix2 k o) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 r o) ((contrEquiv1 D 1024 rfl rfl).symm k) = ix2 r k := funext fun c => Fin.ext (by
    match c with
    | ⟨0, _⟩ => exact D_lhs0 _ _
    | ⟨1, _⟩ => exact (D.lhsIdx_val_of_single rfl _ _).trans hk)
  have er : D.rhsIdx (ix2 r o) ((contrEquiv1 D 1024 rfl rfl).symm k) = ix2 k o := funext fun c => Fin.ext (by
    match c with
    | ⟨0, _⟩ => exact (D.rhsIdx_val_of_single rfl _ _).trans hk
    | ⟨1, _⟩ => exact D_rhs1 _ _)
  rw [el, er]

/-- THE PAYLOAD at `(r, o)`: `rowOut` of row `r` of the activation block, column `o` of the weight block and entry `o` of
    the bias row. -/
theorem pay_apply (x0 : FVec Ideal S1024x1024 .f32) (x1 : FVec Ideal S1024x1024 .bf16) (x2 : FVec Ideal S1x1024 .f32) (r o : Fin 1024) :
    k0_pay1 (F := Ideal) x0 x1 x2 (ix2 r o)
      = rowOut (fun k => x0 (ix2 r k)) (fun k => x1 (ix2 k o)) (x2 (ix2 (0 : Fin 1) o)) := by
  unfold k0_pay1
  dsimp only
  simp only [shapeCast_self]
  rw [addf_apply, broadcastTo_1b_ab_apply, matmul_rc]
  unfold rowOut
  refine congrArg (· + x2 (ix2 (0 : Fin 1) o)) (Finset.sum_congr rfl fun k _ => ?_)
  rw [truncf_apply, deq_apply, scale_col]

end Cert.BitLinear

end
-- ==== Proof.Blocks.lean ====
/-
  From blocks to the array. The grid has 32 points; point `t` reads rows `1024 t … 1024 t + 1023` of the flattened
  activations and the whole weight and bias arrays, and writes the same rows of the output. What it writes is those
  rows of ONE function of the staged arrays (`G2`: every output row depends only on its own activation row), and the 32
  row blocks tile the 32768 rows, so after the region the output array is that function.
-/
import proofs.«105871_j38190849196566_1_alg».proof.Proof.Gen.KernelIdeal.Frame
import proofs.«105871_j38190849196566_1_alg».proof.Proof.Payload
import Idealize.ShloMosaic.Lib.Pipeline.Value
import Idealize.ShloMosaic.Lib.ValueIdx

noncomputable section

namespace Cert.BitLinear
open Cert.KernelIdeal Cert.KernelIdeal.Gen Idealize.ShloMosaic Idealize.ShloMosaic.TcCoe Idealize.SL.Sem Idealize.ShloMosaic.ValueIdx
open Idealize.ShloMosaic.Pipeline (Dat)
variable (m : (ℓ : Loc nD τ sig) → Buf (Elt Ideal) ℓ)

/-- The flattened result `[32768, 1024]` as one function of the three arrays the region stages: entry `(R, o)` from row
    `R` of the flattened activations, column `o` of the transposed ternary weights, entry `o` of the bias row. -/
def G2 (X : S32768x1024.Idx → EReal) (Wt : S1024x1024.Idx → EReal) (B : S1x1024.Idx → EReal) : S32768x1024.Idx → EReal :=
  fun j => rowOut (fun k => X (ix2 (j 0) k)) (fun k => Wt (ix2 k (j 1))) (B (ix2 (0 : Fin 1) (j 1)))

theorem zero_offsets : (![0, 0] : Fin 2 → Nat) = fun _ => 0 := funext fun a => by fin_cases a <;> rfl

/-- The printed index maps over the 32 grid points: the activation window and the output window sit at row block `t`,
    the weight and bias windows at their one block. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of `G2` of the staged arrays as the region finds them. -/
theorem flushed_eq (c : Dev nD) (t : Fin cfg0.N) :
    (dats m 0 c).flushed 3 t
      = ((cfg0.win 3).blk t).view.read (Elt Ideal) (G2 (V m c main_v19) (V m c main_v17) (V m c main_v18)) := by
  show (cfg0.win 3).cut (grid0.coords t) ((dats m 0 c).after 3 t) = _
  rw [after0_3]
  unfold out0_3
  rw [View.canon_unit_zero zero_offsets]
  simp only [View.ld_unit_zero (S := S1024x1024) zero_offsets, View.ld_unit_zero (S := S1x1024) zero_offsets]
  obtain ⟨e00, e01, e10, e11, e20, e21, e30, e31⟩ := index_maps t
  funext j
  obtain ⟨r, o, rfl⟩ : ∃ (r : Fin 1024) (o : Fin 1024), j = ix2 r o := ⟨j 0, j 1, eq_ix2 j⟩
  show k0_pay1 (iblk m c 0 t) (iblk m c 1 t) (iblk m c 2 t) (ix2 r o)
      = G2 (V m c main_v19) (V m c main_v17) (V m c main_v18) (((cfg0.win 3).blk t).view.emb (ix2 r o))
  refine (pay_apply _ _ _ r o).trans ?_
  unfold G2
  have h0 : ∀ k : Fin 1024, iblk m c 0 t (ix2 r k)
      = V m c main_v19 (ix2 ((((cfg0.win 3).blk t).view.emb (ix2 r o)) 0) k) := fun k => by
    show V m c main_v19 (((cfg0.win 0).blk t).view.emb (ix2 r k)) = _
    have hi : ((cfg0.win 0).blk t).view.emb (ix2 r k) = ix2 ((((cfg0.win 3).blk t).view.emb (ix2 r o)) 0) k := by
      funext a; apply Fin.ext
      match a with
      | ⟨0, _⟩ => show win0_0.index t (0 : Fin 2) * 1024 + 1 * r.val = win0_3.index t (0 : Fin 2) * 1024 + 1 * r.val; omega
      | ⟨1, _⟩ => show win0_0.index t (1 : Fin 2) * 1024 + 1 * k.val = k.val; omega
    rw [hi]; rfl
  have h1 : ∀ k : Fin 1024, iblk m c 1 t (ix2 k o)
      = V m c main_v17 (ix2 k ((((cfg0.win 3).blk t).view.emb (ix2 r o)) 1)) := fun k => by
    show V m c main_v17 (((cfg0.win 1).blk t).view.emb (ix2 k o)) = _
    have hi : ((cfg0.win 1).blk t).view.emb (ix2 k o) = ix2 k ((((cfg0.win 3).blk t).view.emb (ix2 r o)) 1) := by
      funext a; apply Fin.ext
      match a with
      | ⟨0, _⟩ => show win0_1.index t (0 : Fin 2) * 1024 + 1 * k.val = k.val; omega
      | ⟨1, _⟩ => show win0_1.index t (1 : Fin 2) * 1024 + 1 * o.val = win0_3.index t (1 : Fin 2) * 1024 + 1 * o.val; omega
    rw [hi]; rfl
  have h2 : iblk m c 2 t (ix2 (0 : Fin 1) o)
      = V m c main_v18 (ix2 (0 : Fin 1) ((((cfg0.win 3).blk t).view.emb (ix2 r o)) 1)) := by
    show V m c main_v18 (((cfg0.win 2).blk t).view.emb (ix2 (0 : Fin 1) o)) = _
    have hi : ((cfg0.win 2).blk t).view.emb (ix2 (0 : Fin 1) o) = ix2 (0 : Fin 1) ((((cfg0.win 3).blk t).view.emb (ix2 r o)) 1) := by
      funext a; apply Fin.ext
      match a with
      | ⟨0, _⟩ => show win0_2.index t (0 : Fin 2) * 1 + 1 * 0 = 0; omega
      | ⟨1, _⟩ => show win0_2.index t (1 : Fin 2) * 1024 + 1 * o.val = win0_3.index t (1 : Fin 2) * 1024 + 1 * o.val; omega
    rw [hi]; rfl
  simp only [h0, h1, h2]

/-- An index of the output array is in point `t`'s block iff each coordinate is in the block's range on its axis. -/
theorem mem_blk (t : Fin cfg0.N) (i : S32768x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v20).slice (win0_3.rect t)).set ↔ _
  rw [View.set_slice_whole, Rect.mem_set_unit]
  exact Iff.rfl

/-- Every row block is some point's. -/
theorem index_onto : ∀ q : Fin 32, ∃ t : Fin cfg0.N, win0_3.index t = ![q.val, 0] :=
  (by decide +kernel : ∀ q : Fin 32, ∃ t : Fin grid0.N, win0_3.index t = ![q.val, 0])

/-- The 32 blocks of 1024 rows tile the 32768 rows: row `R` is in the block of point `R / 1024`. -/
theorem cover (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  obtain ⟨t, ht⟩ := index_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE OUTPUT ARRAY after the region is `G2` of the staged arrays. -/
theorem final3 (c : Dev nD) :
    (dats m 0 c).arrAt 3 cfg0.N = G2 (V m c main_v19) (V m c main_v17) (V m c main_v18) :=
  (dats m 0 c).arrAt_eq_of_cover 3 _ (fun t _ => flushed_eq m c t) cover

end Cert.BitLinear

end
-- ==== Proof.HostPrefix.lean ====
/-
  What the region finds in the three arrays it stages, as @main's operations before it leave them: the activations
  flattened from `[8, 4096, 1024]` to `[32768, 1024]`, the bias stood as one row, and the weights made ternary and
  transposed. Each is the composition of the host operations that wrote it, applied to the argument arrays.
-/
import proofs.«105871_j38190849196566_1_alg».proof.Proof.Gen.KernelIdeal.Frame
import Idealize.ShloMosaic.Lib.StableHlo.Run
import Idealize.ShloMosaic.Lib.Pipeline.Value
import Idealize.ShloMosaic.Lib.ValueIdx

noncomputable section

namespace Cert.BitLinear
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- The ternary weights as @main computes them before the region: `sign w`, zeroed where `|w|` is below `0.05` times the
    mean of `|w|` over the whole matrix, times each row's mean of `|w|` — the operations' own composition. -/
def tern (w : FVec Ideal S1024x1024 .f32) : FVec Ideal S1024x1024 .f32 :=
  mulf (select (cmpf .olt (Host.absf w) (broadcastInDim S1024x1024 ![] Facts₀.bcast_S_S1024x1024
        (mulf (constant (F := Ideal) S_ .f32 0x3D4CCCCD#32)
          (Host.divf (Host.reduceAdd (Host.absf w) (constant (F := Ideal) S_ .f32 0x00000000#32) Facts₀.reducesTo_S1024x1024_S_d0_1 Facts₀.h_S_)
            (constant (F := Ideal) S_ .f32 0x49800000#32)))))
      (broadcastInDim S1024x1024 ![] Facts₀.bcast_S_S1024x1024 (id (constant (F := Ideal) S_ .f32 0x00000000#32)))
      (Host.sign w))
    (broadcastInDim S1024x1024 ![0, 1] Facts₀.bcast_S1024x1_S1024x1024_0_1
      (Host.divf (broadcastInDim S1024x1 ![0] Facts₀.bcast_S1024_S1024x1_0
          (Host.reduceAdd (Host.absf w) (constant (F := Ideal) S_ .f32 0x00000000#32) Facts₀.reducesTo_S1024x1024_S1024_d1 Facts₀.h_S_))
        (broadcastInDim S1024x1 ![] Facts₀.bcast_S_S1024x1 (constant (F := Ideal) S_ .f32 0x44800000#32))))

/-- The activation window's array: the argument `x` flattened to `[32768, 1024]`. -/
theorem staged_x (c : Dev nD) : (V m c main_v19 : S32768x1024.Idx → EReal)
    = shapeCast S32768x1024 (m ((c.tc : Thread nD τ).loc main_arg0)) Facts₀.shapeCasts_S8x4096x1024_S32768x1024 := by
  dsimp only [V, V0]
  simp only [hostOps0, hostOps0_1, hostOps0_2, List.flatten_cons, List.flatten_nil, List.append_nil, List.cons_append, List.nil_append]
  after_results
  rfl

/-- The bias window's array: the argument `bias` as one row `[1, 1024]`. -/
theorem staged_bias (c : Dev nD) : (V m c main_v18 : S1x1024.Idx → EReal)
    = shapeCast S1x1024 (m ((c.tc : Thread nD τ).loc main_arg2)) Facts₀.shapeCasts_S1024_S1x1024 := by
  dsimp only [V, V0]
  simp only [hostOps0, hostOps0_1, hostOps0_2, List.flatten_cons, List.flatten_nil, List.append_nil, List.cons_append, List.nil_append]
  after_results
  rfl

/-- The weight window's array: the ternary weights of the argument `weight`, transposed (the narrowing to bf16 is the
    identity on the extended reals). -/
theorem staged_w (c : Dev nD) : (V m c main_v17 : S1024x1024.Idx → EReal)
    = transpose S1024x1024 [1, 0] (truncf .bf16 (tern (m ((c.tc : Thread nD τ).loc main_arg1))) Facts₀.bitsLt_bf16_f32)
        Facts₀.transposes_S1024x1024_S1024x1024_1_0 := by
  dsimp only [V, V0]
  simp only [hostOps0, hostOps0_1, hostOps0_2, List.flatten_cons, List.flatten_nil, List.append_nil, List.cons_append, List.nil_append]
  after_results
  rfl

end Cert.BitLinear

end
-- ==== Proof.Flatten.lean ====
/-
  Flattening the two leading axes: entry `(b, s, k)` of an `[8, 4096, 1024]` array is entry `(4096 b + s, k)` of its
  `[32768, 1024]` reshape, in both directions (the two indices have the same row-major position). And `rowOut` depends
  on its row of activations, its row of weights and its bias entry only through their values.
-/
import proofs.«105871_j38190849196566_1_alg».proof.Proof.Spec
import Idealize.ShloMosaic.Lib.Pipeline.Value
import Idealize.ShloMosaic.Lib.ValueIdx

noncomputable section

namespace Cert.BitLinear

open Idealize.ShloMosaic Idealize.ShloMosaic.ValueIdx

variable {α : Type}

/-- The flattened row index of `(b, s)`. -/
abbrev flatRow (b : Fin 8) (s : Fin 4096) : Fin 32768 := ⟨b.val * 4096 + s.val, by omega⟩

theorem flatten_apply (X : (⟨3, ![8, 4096, 1024]⟩ : Shape).Idx → α)
    (h : (⟨3, ![8, 4096, 1024]⟩ : Shape).ShapeCasts ⟨2, ![32768, 1024]⟩) (b : Fin 8) (s : Fin 4096) (k : Fin 1024) :
    shapeCast ⟨2, ![32768, 1024]⟩ X h (ix2 (flatRow b s) k) = X (ix3 b s k) :=
  shapeCast_apply X h _ _ (by
    rw [Shape.rowMajor_val_three, Shape.rowMajor_val_two]
    rfl)

theorem unflatten_apply (Y : (⟨2, ![32768, 1024]⟩ : Shape).Idx → α)
    (h : (⟨2, ![32768, 1024]⟩ : Shape).ShapeCasts ⟨3, ![8, 4096, 1024]⟩) (b : Fin 8) (s : Fin 4096) (k : Fin 1024) :
    shapeCast ⟨3, ![8, 4096, 1024]⟩ Y h (ix3 b s k) = Y (ix2 (flatRow b s) k) :=
  shapeCast_apply Y h _ _ (by
    rw [Shape.rowMajor_val_three, Shape.rowMajor_val_two]
    rfl)

theorem rowOut_congr {xr xr' wr wr' : Fin 1024 → EReal} {b b' : EReal} (hx : ∀ k, xr k = xr' k) (hw : ∀ k, wr k = wr' k)
    (hb : b = b') : rowOut xr wr b = rowOut xr' wr' b' := by
  rw [show xr = xr' from funext hx, show wr = wr' from funext hw, hb]

end Cert.BitLinear

end
-- ==== Proof.KernelRun.lean ====
/-
  The kernel's run, read. After the region @main reshapes the `[32768, 1024]` output back to `[8, 4096, 1024]`; with
  the output array at `G2` of the staged arrays and those at their host operations' terms, the program's result is
  `G` of the three arguments (the weights made ternary), and the arguments are unchanged.
-/
import proofs.«105871_j38190849196566_1_alg».proof.Proof.Blocks
import proofs.«105871_j38190849196566_1_alg».proof.Proof.HostPrefix
import proofs.«105871_j38190849196566_1_alg».proof.Proof.Flatten
import Idealize.ShloMosaic.Lib.StableHlo.Run
import Idealize.ShloMosaic.Lib.Pipeline.Value
import Idealize.ShloMosaic.Lib.ValueIdx
import Idealize.ShloMosaic.Lib.ValueLayout

noncomputable section

namespace Cert.BitLinear
open Cert.KernelIdeal Cert.KernelIdeal.Gen Idealize.ShloMosaic Idealize.ShloMosaic.TcCoe Idealize.SL.Sem Idealize.ShloMosaic.ValueIdx Idealize.ShloMosaic.StableHlo
open Idealize.ShloMosaic.Pipeline (Dat)
variable (m : (ℓ : Loc nD τ sig) → Buf (Elt Ideal) ℓ)

/-- After the region, @main's one remaining operation reshapes the output array back to `[8, 4096, 1024]`: the
    program's result is that reshape of `G2` of the staged arrays. -/
theorem tail_eq (c : Dev nD) :
    (Pipeline.afterTail₀ cfgs (dats m) 0 (V0 m) [hostOps1] c main_v21 : S8x4096x1024.Idx → EReal)
      = shapeCast S8x4096x1024 (G2 (V m c main_v19) (V m c main_v17) (V m c main_v18))
          Facts₀.shapeCasts_S32768x1024_S8x4096x1024 := by
  unfold Pipeline.afterTail₀
  show StableHlo.after hostOps1 _ (Proc.devRef .tc main_v21) = _
  after_results
  have e := (Pipeline.withArrays_arr spec0 launch0.win.arr_inj c (V0 m c) (fun w => (dats m 0 c).arrAt w cfg0.N) 3).trans
    (final3 m c)
  exact congrArg (fun A => shapeCast S8x4096x1024 A Facts₀.shapeCasts_S32768x1024_S8x4096x1024) e

/-- THE KERNEL'S RESULT is `G` of the argument arrays, the weights made ternary: entry `(b, s, o)` is entry
    `(4096 b + s, o)` of the flattened output, whose activation row is row `(b, s)` of `x`, whose weight column is row `o`
    of the ternary weights (transposed twice) and whose bias entry is `bias[o]`. -/
theorem kernel_value (c : Dev nD) :
    (Pipeline.afterTail₀ cfgs (dats m) 0 (V0 m) [hostOps1] c main_v21 : S8x4096x1024.Idx → EReal)
      = G (m ((c.tc : Thread nD τ).loc main_arg0)) (tern (m ((c.tc : Thread nD τ).loc main_arg1)))
          (m ((c.tc : Thread nD τ).loc main_arg2)) := by
  rw [tail_eq]
  funext i
  obtain ⟨b, s, o, rfl⟩ : ∃ (b : Fin 8) (s : Fin 4096) (o : Fin 1024), i = ix3 b s o := ⟨i 0, i 1, i 2, eq_ix3 i⟩
  rw [G_apply, unflatten_apply]
  show rowOut (fun k => V m c main_v19 (ix2 (flatRow b s) k)) (fun k => V m c main_v17 (ix2 k o))
      (V m c main_v18 (ix2 (0 : Fin 1) o)) = _
  refine rowOut_congr (fun k => ?_) (fun k => ?_) ?_
  · rw [staged_x]; exact flatten_apply _ _ b s k
  · rw [staged_w, transpose_ix2_apply, truncf_apply]
  · rw [staged_bias]; exact shapeCast_a_1a_apply _ _ 0 o

/-- The frame run re-posted: the result at `G` of the arguments, the arguments unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v21)
          = G (m ((c.tc : Thread nD τ).loc main_arg0)) (tern (m ((c.tc : Thread nD τ).loc main_arg1)))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v21 (Pipeline.mem_restRefs_of main_v21 (by decide) (by decide))).trans (kernel_value m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.BitLinear

end
-- ==== Proof.Reference.lean ====
/-
  The reference's result, read. Stage by stage the reference scales each row `(b, s)` of the activations by its largest
  magnitude (at least `ε`), rounds, clips and brings back — the same `quant` — and adds the difference from `x` back onto
  `x` (a straight-through estimator, whose forward value is the quantized entry whenever `x` is a real number); it does the
  same with the ternary weights; contracts the two over the 1024 input features and adds the bias. So its result is `G`.
-/
import proofs.«105871_j38190849196566_1_alg».proof.Proof.Gen.ReferenceIdeal.Read
import proofs.«105871_j38190849196566_1_alg».proof.Proof.Spec
import Idealize.ShloMosaic.PureOps.Ideal.Laws
import Idealize.ShloMosaic.PureOps.Reduce
import Idealize.ShloMosaic.Lib.ValueIdx

noncomputable section

namespace Cert.BitLinear.Ref
open Cert.BitLinear Cert.ReferenceIdeal Cert.ReferenceIdeal.Gen Cert.ReferenceIdeal.Read Idealize.ShloMosaic Idealize.ShloMosaic.ValueIdx

/-- A fold by the float maximum, on the extended reals, is the fold by `max`. -/
theorem fold_maximumf_eq {ι : Type} (s : Finset ι) (b : EReal) (f : ι → EReal) :
    s.fold (FloatOps.maximumf (F := Ideal) (φ := .f32)) b f = s.fold max b f := rfl

/-- Reducing `[8, 4096, 1024]` along its last axis: the source index over `(b, s)` with lane `k` inserted is `(b, s, k)`. -/
theorem lift_lanes (h : S8x4096x1024.Reduces [2] S8x4096) (b : Fin 8) (s : Fin 4096) (k : Fin 1024) :
    h.lift (ix2 b s) k = ix3 b s k :=
  funext fun c => Fin.ext (by match c with | ⟨0, _⟩ => rfl | ⟨1, _⟩ => rfl | ⟨2, _⟩ => rfl)

/-- Row `(b, s)`'s largest magnitude as the reference takes it: the host's reduce by the maximum from `-∞` over the last
    axis is the fold of `max` over the row's 1024 lanes. -/
theorem ref_row_max (x : FVec Ideal S8x4096x1024 .f32) (b : Fin 8) (s : Fin 4096) :
    val_main_v1 (F := Ideal) x (ix2 b s)
      = (Finset.univ : Finset (Fin 1024)).fold max negInf fun k => max (x (ix3 b s k)) (-(x (ix3 b s k))) := by
  unfold val_main_v1
  have hR : S8x4096x1024.Reduces [2] S8x4096 := by decide
  refine (Host.reduce_eq_fold_single (FloatOps.maximumf (F := Ideal) (φ := .f32)) (val_main_v0 (F := Ideal) x) (val_main_cst (F := Ideal))
    Facts₀.reducesTo_S8x4096x1024_S8x4096_d2 hR Facts₀.h_S_ (ix2 b s)).trans ?_
  rw [fold_maximumf_eq, val_main_cst_apply, Ideal.ofBits_def]
  refine congrArg (Finset.fold max negInf · Finset.univ) (funext fun k => ?_)
  show FloatOps.hostAbsf (x (hR.lift (ix2 b s) k)) = _
  exact (congrArg (fun i => FloatOps.hostAbsf (x i)) (lift_lanes hR b s k)).trans
    ((Ideal.hostAbsf_def _).trans (Ideal.absf_def _))

/-- The reference's scale of row `(b, s)`. -/
theorem ref_scale (x : FVec Ideal S8x4096x1024 .f32) (b : Fin 8) (s : Fin 4096) :
    val_main_v4 (F := Ideal) x (ix3 b s (0 : Fin 1)) = rowScale fun k => x (ix3 b s k) := by
  have e2 : idx_main_v2 (ix3 b s (0 : Fin 1)) = ix2 b s :=
    funext fun c => Fin.ext (by match c with | ⟨0, _⟩ => rfl | ⟨1, _⟩ => rfl)
  rw [val_main_v4_apply, val_main_v2_apply, val_main_v3_apply, val_main_cst_0_apply, e2, ref_row_max,
    Ideal.maximumf_def, Ideal.ofBits_def]
  rfl

/-- The reference's dequantized entry `(b, s, k)`. -/
theorem ref_quant (x : FVec Ideal S8x4096x1024 .f32) (b : Fin 8) (s : Fin 4096) (k : Fin 1024) :
    val_main_v14 (F := Ideal) x (ix3 b s k) = quant (rowScale fun k' => x (ix3 b s k')) (x (ix3 b s k)) := by
  have e5 : idx_main_v5 (ix3 b s k) = ix3 b s (0 : Fin 1) :=
    funext fun c => Fin.ext (by match c with | ⟨0, _⟩ => rfl | ⟨1, _⟩ => rfl | ⟨2, _⟩ => rfl)
  have e11 : idx_main_v11 (ix3 b s k) = ix3 b s (0 : Fin 1) :=
    funext fun c => Fin.ext (by match c with | ⟨0, _⟩ => rfl | ⟨1, _⟩ => rfl | ⟨2, _⟩ => rfl)
  rw [val_main_v14_apply, val_main_v12_apply, val_main_v13_apply, val_main_cst_4_apply, val_main_v10_apply,
    val_main_call1_v4_apply, val_main_call1_v3_apply, val_main_cst_3_apply, val_main_call1_v2_apply,
    val_main_call1_v1_apply, val_main_call1_v0_apply, val_main_cst_2_apply, val_main_v9_apply, val_main_v8_apply,
    val_main_v7_apply, val_main_cst_1_apply, val_main_v6_apply, val_main_v5_apply, val_main_v11_apply, e5, e11,
    ref_scale]
  simp only [Ideal.hostDivf_def, Ideal.mulf_def, Ideal.minimumf_def, Ideal.maximumf_def, Ideal.hostUnary_roundeven_def,
    Ideal.ofBits_def]
  rfl

/-- The straight-through estimator on the activations: at a real entry the forward value is the dequantized one. -/
theorem ste_x (x : FVec Ideal S8x4096x1024 .f32) (j : S8x4096x1024.Idx) (hx : ∃ a : ℝ, x j = (a : EReal)) :
    val_main_v16 (F := Ideal) x j = val_main_v14 (F := Ideal) x j := by
  obtain ⟨a, ha⟩ := hx
  rw [val_main_v16_apply, val_main_v15_apply, Ideal.addf_def, Ideal.subf_def, ha]
  exact add_sub_cancel_of_real a _

/-- The straight-through estimator on the weights: at a real entry the forward value is the ternary one. -/
theorem ste_w (w : FVec Ideal S1024x1024 .f32) (j : S1024x1024.Idx) (hw : ∃ a : ℝ, w j = (a : EReal)) :
    val_main_v34 (F := Ideal) w j = val_main_v32 (F := Ideal) w j := by
  obtain ⟨a, ha⟩ := hw
  rw [val_main_v34_apply, val_main_v33_apply, Ideal.addf_def, Ideal.subf_def, ha]
  exact add_sub_cancel_of_real a _

/-- THE REFERENCE'S RESULT is `G` of its arguments, its own ternary weights in the weights' place, when the activations
    and the weights are real numbers. -/
theorem ref_value (x : FVec Ideal S8x4096x1024 .f32) (w : FVec Ideal S1024x1024 .f32) (bias : FVec Ideal S1024 .f32)
    (hx : ∀ j, ∃ a : ℝ, x j = (a : EReal)) (hw : ∀ j, ∃ a : ℝ, w j = (a : EReal)) :
    val_main_v38 (F := Ideal) x w bias = G x (val_main_v32 (F := Ideal) w) bias := by
  funext i
  obtain ⟨b, s, o, rfl⟩ : ∃ (b : Fin 8) (s : Fin 4096) (o : Fin 1024), i = ix3 b s o := ⟨i 0, i 1, i 2, eq_ix3 i⟩
  rw [G_apply, val_main_v38_apply, val_main_v35_apply, val_main_v37_apply, val_main_v36_apply, Ideal.addf_def]
  unfold rowOut
  have eb : idx_main_v36 (idx_main_v37 (ix3 b s o)) = ix1 o :=
    funext fun c => Fin.ext (by match c with | ⟨0, _⟩ => rfl)
  rw [eb]
  refine congrArg (· + bias (ix1 o)) (Finset.sum_congr rfl fun k _ => ?_)
  have el : lidx_main_v35 (ix3 b s o) k = ix3 b s k :=
    funext fun c => Fin.ext (by match c with | ⟨0, _⟩ => rfl | ⟨1, _⟩ => rfl | ⟨2, _⟩ => rfl)
  have er : ridx_main_v35 (ix3 b s o) k = ix2 o k :=
    funext fun c => Fin.ext (by match c with | ⟨0, _⟩ => rfl | ⟨1, _⟩ => rfl)
  rw [el, er, ste_x x _ (hx _), ste_w w _ (hw _), ref_quant]

end Cert.BitLinear.Ref

end
-- ==== Proof.Finite.lean ====
/-
  What the precondition gives. `finite_inputs` is the conjunction of three `jnp.all(|a| < ∞)`; each makes every entry of
  its array a real number (an extended real with `max a (-a) < ⊤` is neither infinity). The proof needs it of the
  activations and of the weights, where the reference adds and subtracts the argument itself.
-/
import proofs.«105871_j38190849196566_1_alg».proof.Proof.Gen.Pre_finite_inputs
import Idealize.ShloMosaic.Lib.ReduceAll
import Idealize.ShloMosaic.Lib.Affine
import Idealize.ShloMosaic.Lib.Pipeline.Value
import Idealize.ShloMosaic.Lib.ValueIdx
import Idealize.ShloMosaic.PureOps.Ideal.Laws

noncomputable section

namespace Cert.BitLinear
open Cert.Pre_finite_inputs Idealize.ShloMosaic Idealize.ShloMosaic.ValueIdx

/-- The word `0x7F800000` is `+∞`. -/
theorem posInf : Ideal.ofBits .f32 0x7F800000#32 = ⊤ := by simp [Ideal.ofBits, Ideal.ieee]

/-- An extended real whose magnitude compares below `+∞` is a real number. -/
theorem real_of_abs_lt (v : EReal)
    (h : FloatOps.cmpf (F := Ideal) (φ := .f32) .olt (FloatOps.hostAbsf v) (Ideal.ofBits .f32 0x7F800000#32) = 1#1) :
    ∃ a : ℝ, v = (a : EReal) := by
  rw [Ideal.cmpf_def, Ideal.hostAbsf_def, Ideal.absf_def, posInf] at h
  induction v using EReal.rec with
  | bot => simp [Ideal.cmp] at h
  | top => simp [Ideal.cmp] at h
  | coe r => exact ⟨r, rfl⟩

instance : Subsingleton S_.Idx := ⟨fun a b => funext fun d => d.elim0⟩

/-- A `jnp.all(|a| < ∞)` that holds makes every entry of `a` a real number. -/
theorem real_of_all {s : Shape} (a : FVec Ideal s .f32) (hb : S_.BroadcastsInDim s (![] : Fin 0 → Fin s.rank))
    {axes : List (Fin s.rank)} (hr : s.ReducesTo axes S_) (hu : 0 < S_.numel)
    (h : Host.reduce IntOp.andi (cmpf .olt (Host.absf a) (broadcastInDim s ![] hb (constant (F := Ideal) S_ .f32 0x7F800000#32)))
          (constantI S_ 1 1#1) hr hu ix0 = 1#1) (j : s.Idx) : ∃ r : ℝ, a j = (r : EReal) := by
  have e := Host.reduce_andi_all _ _ hr hu ix0 h j
  rw [cmpf_apply, broadcastInDim_apply _ hb _ j ix0 (fun c => c.elim0), constant_apply] at e
  exact real_of_abs_lt _ e

/-- FINITENESS from the precondition: where `finite_inputs` holds the activations and the weights are real numbers. -/
theorem real_of_pre [Cert.Pre_finite_inputs.Facts] (x : FVec Ideal S8x4096x1024 .f32) (w : FVec Ideal S1024x1024 .f32)
    (bias : FVec Ideal S1024 .f32) (h : fn (F := Ideal) x w bias = fun _ => 1#1) :
    (∀ j, ∃ r : ℝ, x j = (r : EReal)) ∧ (∀ j, ∃ r : ℝ, w j = (r : EReal)) := by
  have h0 := congrFun h ix0
  dsimp only [fn] at h0
  obtain ⟨h01, -⟩ := IntOp.andi_eq_one.1 h0
  obtain ⟨hx, hw⟩ := IntOp.andi_eq_one.1 h01
  exact ⟨real_of_all x _ _ _ hx, real_of_all w _ _ _ hw⟩

end Cert.BitLinear

end
-- ==== Proof.lean ====
/-
  The claim for the BitLinear kernel (per-row 4-bit activation quantization, ternary weights, a linear layer) against
  its jnp reference, on the extended reals.

  Both programs compute, for every row `(b, s)` of the activations and every output feature `o`,
  `∑ₖ quant(x[b, s, k]) · T[o, k] + bias[o]`, where `quant` scales the row by its largest magnitude (at least `ε`),
  rounds to nearest even, clips to `[-8, 7]` and scales back, and `T` is the ternary weight matrix that both programs
  build with the same host operations. The kernel flattens the rows to `[32768]`, works on 32 blocks of 1024 rows and
  multiplies by the transposed `T`; the reference keeps `[8, 4096]` and wraps both quantizations in a straight-through
  estimator `a + (q - a)`, which is `q` wherever `a` is a real number — the one place the precondition is used. No sum is
  reordered: the two contractions run over the same 1024 lanes.

  The three frames are the generated ones (the reference's is its generated run with the result dropped); the ideal pass
  rewrote nothing, so `preserves` is trivial.
-/
import proofs.«105871_j38190849196566_1_alg».proof.Defs
import proofs.«105871_j38190849196566_1_alg».proof.Proof.Gen.Kernel
import proofs.«105871_j38190849196566_1_alg».proof.Proof.Gen.Kernel.Skeleton
import proofs.«105871_j38190849196566_1_alg».proof.Proof.Gen.Kernel.Launch
import proofs.«105871_j38190849196566_1_alg».proof.Proof.Gen.Kernel.Points
import proofs.«105871_j38190849196566_1_alg».proof.Proof.Gen.Kernel.Frame
import proofs.«105871_j38190849196566_1_alg».proof.Proof.Gen.KernelIdeal
import proofs.«105871_j38190849196566_1_alg».proof.Proof.Gen.KernelIdeal.Skeleton
import proofs.«105871_j38190849196566_1_alg».proof.Proof.Gen.KernelIdeal.Launch
import proofs.«105871_j38190849196566_1_alg».proof.Proof.Gen.KernelIdeal.Points
import proofs.«105871_j38190849196566_1_alg».proof.Proof.Gen.KernelIdeal.Frame
import proofs.«105871_j38190849196566_1_alg».proof.Proof.Gen.ReferenceIdeal
import proofs.«105871_j38190849196566_1_alg».proof.Proof.Gen.Pre_finite_inputs
import proofs.«105871_j38190849196566_1_alg».proof.Proof.Gen.ReferenceIdeal.Run
import proofs.«105871_j38190849196566_1_alg».proof.Proof.Gen.ReferenceIdeal.Read
import proofs.«105871_j38190849196566_1_alg».proof.Proof.KernelRun
import proofs.«105871_j38190849196566_1_alg».proof.Proof.Reference
import proofs.«105871_j38190849196566_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The ternary weights: the reference builds them with the very operations the kernel's @main runs before its region. -/
theorem tern_eq (w : FVec Ideal Cert.ReferenceIdeal.S1024x1024 .f32) :
    Cert.ReferenceIdeal.Read.val_main_v32 (F := Ideal) w = Cert.BitLinear.tern w := rfl

/-- Both programs end at `G` of the arguments (the weights made ternary): the kernel by its run read block by block, the
    reference by its run read stage by stage, the precondition making the activations and the weights real numbers. -/
theorem algebraic : Cert.algebraic_KernelIdeal_ReferenceIdeal := by
  intro m ρ m' ρ' hpre hagree
  refine ⟨fun c => Cert.BitLinear.G
      (m ((c.tc : Thread Cert.KernelIdeal.nD Cert.KernelIdeal.τ).loc Cert.KernelIdeal.main_arg0))
      (Cert.BitLinear.tern (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)),
    Cert.BitLinear.kernel_run m ρ, ?_⟩
  refine (θ_run Cert.ReferenceIdeal.defs _ _).mono (fun _ h c => ⟨?_, (h c).2⟩)
    (Cert.ReferenceIdeal.Value.run (F := Ideal) m' ρ')
  obtain ⟨hx, hw⟩ := Cert.BitLinear.real_of_pre _ _ _ (hpre c)
  rw [(h c).1, Cert.ReferenceIdeal.Read.val_main_v38_eq, (hagree c).1, (hagree c).2.1, (hagree c).2.2,
    Cert.BitLinear.Ref.ref_value _ _ _ hx hw, tern_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
